-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x64 : Shape := ⟨2, ![64, 64]⟩
abbrev S64 : Shape := ⟨1, ![64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S1048576x64 .f32) (main_arg1 : IVec S64x64 32) (main_arg2 : FVec F S64 .f32) (main_arg3 : FVec F S64x64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S1048576x64 : Shape := ⟨2, ![1048576, 64]⟩
abbrev S64x64 : Shape := ⟨2, ![64, 64]⟩
abbrev S64 : Shape := ⟨1, ![64]⟩
abbrev S16 : Shape := ⟨1, ![16]⟩
abbrev S_ : Shape := ⟨0, ![]⟩
abbrev S64x64x1 : Shape := ⟨3, ![64, 64, 1]⟩
abbrev S64x1 : Shape := ⟨2, ![64, 1]⟩
abbrev S64x128 : Shape := ⟨2, ![64, 128]⟩
abbrev S128x128 : Shape := ⟨2, ![128, 128]⟩
abbrev S524288x128 : Shape := ⟨2, ![524288, 128]⟩
abbrev S8192x128 : Shape := ⟨2, ![8192, 128]⟩

abbrev nBuf : Space → Nat
  | .hbm => 27
  | .vmem => 5
  | .smem => 0
  | _ => 0

abbrev bufTy : (tb : Table) → Fin (tcTables nBuf tb) → BufTy
  | .hbm, ⟨0, _⟩ => ⟨S1048576x64, .f32⟩
  | .hbm, ⟨1, _⟩ => ⟨S64x64, .i32⟩
  | .hbm, ⟨2, _⟩ => ⟨S64, .f32⟩
  | .hbm, ⟨3, _⟩ => ⟨S64x64, .f32⟩
  | .hbm, ⟨4, _⟩ => ⟨S16, .f32⟩
  | .hbm, ⟨5, _⟩ => ⟨S_, .i32⟩
  | .hbm, ⟨6, _⟩ => ⟨S64x64, .i32⟩
  | .hbm, ⟨7, _⟩ => ⟨S64x64, .i1⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i32⟩
  | .hbm, ⟨12, _⟩ => ⟨S64x64x1, .i32⟩
  | .hbm, ⟨13, _⟩ => ⟨S64x64, .f32⟩
  | .hbm, ⟨14, _⟩ => ⟨S64x1, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x128, .f32⟩
  | .hbm, ⟨22, _⟩ => ⟨S64x128, .f32⟩
  | .hbm, ⟨23, _⟩ => ⟨S128x128, .f32⟩
  | .hbm, ⟨24, _⟩ => ⟨S524288x128, .f32⟩
  | .hbm, ⟨25, _⟩ => ⟨S524288x128, .f32⟩
  | .hbm, ⟨26, _⟩ => ⟨S1048576x64, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S8192x128, .f32⟩
  | .local _ .vmem, ⟨4, _⟩ => ⟨S8192x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  transposes_S64x64_S64x64_1_0 : S64x64.Transposes [1, 0] S64x64
  concatenates_S64x64_S64x64_S64x128_d1 : Shape.Concatenates [S64x64, S64x64] S64x128 1
  concatenates_S64x128_S64x128_S128x128_d0 : Shape.Concatenates [S64x128, S64x128] S128x128 0
  shapeCasts_S1048576x64_S524288x128 : S1048576x64.ShapeCasts S524288x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S524288x128_S1048576x64 : S524288x128.ShapeCasts S1048576x64
  gather_S16_S64x64x1_S64x64_n_0_n_n_0_2_1_wf : GatherDims.WF S16 S64x64x1 S64x64 [] [0] [] [0] [] 2 ![1]
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S524288x128.size a
  hwx0_2 : ∀ i : grid0.Coords, EltTy.bits .f32 = 32 ∨ (Rect.block (s := S524288x128) S8192x128.size (cc0_transform_2 i) (hinb0_2 i)).WholeWords (EltTy.packing .f32)

variable [Facts₀]

def gather_S16_S64x64x1_S64x64_n_0_n_n_0_2_1 : GatherDims S16 S64x64x1 S64x64 where
  offsetDims := []
  collapsedSliceDims := [0]
  operandBatchingDims := []
  startIndicesBatchingDims := []
  startIndexMap := [0]
  indexVectorDim := 2
  sliceSizes := ![1]
  wf := gather_S16_S64x64x1_S64x64_n_0_n_n_0_2_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v16) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x64 : Shape := ⟨2, ![64, 64]⟩
abbrev S64 : Shape := ⟨1, ![64]⟩
abbrev S16 : Shape := ⟨1, ![16]⟩
abbrev S_ : Shape := ⟨0, ![]⟩
abbrev S64x64x1 : Shape := ⟨3, ![64, 64, 1]⟩
abbrev S64x1 : Shape := ⟨2, ![64, 1]⟩

abbrev nBuf : Space → Nat
  | .hbm => 22
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x64, .i32⟩
  | .hbm, ⟨2, _⟩ => ⟨S64, .f32⟩
  | .hbm, ⟨3, _⟩ => ⟨S64x64, .f32⟩
  | .hbm, ⟨4, _⟩ => ⟨S16, .f32⟩
  | .hbm, ⟨5, _⟩ => ⟨S_, .i32⟩
  | .hbm, ⟨6, _⟩ => ⟨S64x64, .i32⟩
  | .hbm, ⟨7, _⟩ => ⟨S64x64, .i1⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i32⟩
  | .hbm, ⟨12, _⟩ => ⟨S64x64x1, .i32⟩
  | .hbm, ⟨13, _⟩ => ⟨S64x64, .f32⟩
  | .hbm, ⟨14, _⟩ => ⟨S64x1, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S1048576x64, .f32⟩
  | .hbm, ⟨19, _⟩ => ⟨S64x64, .f32⟩
  | .hbm, ⟨20, _⟩ => ⟨S1048576x64, .f32⟩
  | .hbm, ⟨21, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  transposes_S64x64_S64x64_1_0 : S64x64.Transposes [1, 0] S64x64
  gather_S16_S64x64x1_S64x64_n_0_n_n_0_2_1_wf : GatherDims.WF S16 S64x64x1 S64x64 [] [0] [] [0] [] 2 ![1]
  dot_S1048576x64_S64x64_S1048576x64_1_0_0_1_n_n_wf : DotDims.WF S1048576x64 S64x64 S1048576x64 [1] [0] [0] [1] [] []

variable [Facts₀]

def gather_S16_S64x64x1_S64x64_n_0_n_n_0_2_1 : GatherDims S16 S64x64x1 S64x64 where
  offsetDims := []
  collapsedSliceDims := [0]
  operandBatchingDims := []
  startIndicesBatchingDims := []
  startIndexMap := [0]
  indexVectorDim := 2
  sliceSizes := ![1]
  wf := gather_S16_S64x64x1_S64x64_n_0_n_n_0_2_1_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf

class Facts : Prop extends Facts₀ where

variable [Facts]
-- ==== Proof.Linear.lean ====
/-
  The mathematics of the certificate, free of either program.

  A linear layer whose weight is a base matrix plus an adapter: for an input `x` of 1048576 rows and 64 columns and two
  64 × 64 matrices `w` (rows = output features) and `a`, the result`s entry `(r, c)` is
  `Σ_k x[r,k]·w[c,k] + Σ_k x[r,k]·a[c,k]` (`twoProducts`).

  One program computes exactly that. The other first adds the matrices, lays the sum out twice on the diagonal of a
  128 × 128 matrix with zero blocks off the diagonal, reads `x` two rows at a time as rows of 128 entries, and takes ONE
  product of 128 terms per entry. Of those 128 terms the 64 that meet an off-diagonal block are products with zero
  (`packed_row`), and the other 64 are `x[r,k]·(w[c,k] + a[c,k])`; distributing the product over the sum
  (`sum_mul_add`) needs `x[r,k]` and `a[c,k]` to be real numbers: on the extended reals `(-1)·(⊤ + ⊥)` is `⊤` while
  `(-1)·⊤ + (-1)·⊥` is `⊥`. The base weight `w[c,k]` may be any extended real.

  `dequant` is the base weight as both programs compute it from sixteen-entry codebook indices and one scale per row; the
  certificate never opens it.
-/
import Idealize.ShloMosaic.Lib.ValueIdx
import Idealize.ShloMosaic.PureOps
import Idealize.ShloMosaic.PureOps.Ideal

noncomputable section

namespace Cert.Linear

open Idealize.ShloMosaic Idealize.ShloMosaic.ValueIdx
open scoped BigOperators

/-- `x · wᵀ + x · aᵀ`: entry `(r, c)` is row `r` of `x` against row `c` of `w`, plus row `r` of `x` against row `c` of `a`. -/
def twoProducts (x : (⟨2, ![1048576, 64]⟩ : Shape).Idx → EReal) (w a : (⟨2, ![64, 64]⟩ : Shape).Idx → EReal) :
    (⟨2, ![1048576, 64]⟩ : Shape).Idx → EReal :=
  fun i => (∑ k : Fin 64, x (ix2 (i 0) k) * w (ix2 (i 1) k)) + ∑ k : Fin 64, x (ix2 (i 0) k) * a (ix2 (i 1) k)

theorem twoProducts_ix2 (x : (⟨2, ![1048576, 64]⟩ : Shape).Idx → EReal) (w a : (⟨2, ![64, 64]⟩ : Shape).Idx → EReal)
    (r : Fin 1048576) (c : Fin 64) :
    twoProducts x w a (ix2 r c) = (∑ k : Fin 64, x (ix2 r k) * w (ix2 c k)) + ∑ k : Fin 64, x (ix2 r k) * a (ix2 c k) := rfl

/-- The base weight, as both programs compute it: entry `(o, k)` is the codebook entry at the code of `(o, k)` (a
    negative code first raised by 16) times the scale of row `o`. -/
def dequant (gd : GatherDims ⟨1, ![16]⟩ ⟨3, ![64, 64, 1]⟩ ⟨2, ![64, 64]⟩)
    (hs : (⟨0, ![]⟩ : Shape).BroadcastsInDim ⟨2, ![64, 64]⟩ (![] : Fin 0 → Fin 2))
    (hi : (⟨2, ![64, 64]⟩ : Shape).BroadcastsInDim ⟨3, ![64, 64, 1]⟩ (![0, 1] : Fin 2 → Fin 3))
    (hc : (⟨1, ![64]⟩ : Shape).BroadcastsInDim ⟨2, ![64, 1]⟩ (![0] : Fin 1 → Fin 2))
    (hr : (⟨2, ![64, 1]⟩ : Shape).BroadcastsInDim ⟨2, ![64, 64]⟩ (![0, 1] : Fin 2 → Fin 2))
    (book : Fin 16 → BitVec 32) (codes : IVec ⟨2, ![64, 64]⟩ 32) (scale : FVec Ideal ⟨1, ![64]⟩ .f32) :
    FVec Ideal ⟨2, ![64, 64]⟩ .f32 :=
  mulf (Host.gather gd (fun i => FloatOps.ofBits (F := Ideal) .f32 (book ((⟨1, ![16]⟩ : Shape).rowMajor i)))
      (broadcastInDim ⟨3, ![64, 64, 1]⟩ ![0, 1] hi
        (select (cmpi .slt codes (broadcastInDim ⟨2, ![64, 64]⟩ ![] hs (constantI ⟨0, ![]⟩ 32 0#32)))
          (addi codes (broadcastInDim ⟨2, ![64, 64]⟩ ![] hs (constantI ⟨0, ![]⟩ 32 16#32))) codes)))
    (broadcastInDim ⟨2, ![64, 64]⟩ ![0, 1] hr (broadcastInDim ⟨2, ![64, 1]⟩ ![0] hc scale))

/-! ## The two laws -/

/-- A real number times a sum one of whose terms is real distributes, whatever the other term. -/
theorem coe_mul_add_coe (x b : ℝ) (y : EReal) : (x : EReal) * (y + (b : EReal)) = (x : EReal) * y + (x : EReal) * (b : EReal) := by
  induction y using EReal.rec with
  | bot =>
    rw [EReal.bot_add]
    rcases lt_trichotomy x 0 with h | h | h
    · rw [EReal.coe_mul_bot_of_neg h, ← EReal.coe_mul, EReal.top_add_coe]
    · subst h; simp
    · rw [EReal.coe_mul_bot_of_pos h, EReal.bot_add]
  | coe y => rw [← EReal.coe_add, ← EReal.coe_mul, ← EReal.coe_mul, ← EReal.coe_mul, ← EReal.coe_add, mul_add]
  | top =>
    rw [EReal.top_add_coe]
    rcases lt_trichotomy x 0 with h | h | h
    · rw [EReal.coe_mul_top_of_neg h, EReal.bot_add]
    · subst h; simp
    · rw [EReal.coe_mul_top_of_pos h, ← EReal.coe_mul, EReal.top_add_coe]

/-- Distributing a row of reals over the sum of a row of anything and a row of reals. -/
theorem sum_mul_add {n : ℕ} (u w a : Fin n → EReal) (hu : ∀ k, ∃ r : ℝ, u k = (r : EReal)) (ha : ∀ k, ∃ r : ℝ, a k = (r : EReal)) :
    ∑ k, u k * (w k + a k) = (∑ k, u k * w k) + ∑ k, u k * a k := by
  rw [← Finset.sum_add_distrib]
  refine Finset.sum_congr rfl fun k _ => ?_
  obtain ⟨r, hr⟩ := hu k
  obtain ⟨b, hb⟩ := ha k
  rw [hr, hb]
  exact coe_mul_add_coe r b (w k)

/-- A sum of 128 terms is the sum of its first 64 and of its last 64. -/
theorem sum_halves (f : Fin 128 → EReal) :
    ∑ k, f k = (∑ k : Fin 64, f ⟨k.val, by omega⟩) + ∑ k : Fin 64, f ⟨64 + k.val, by omega⟩ := by
  rw [show (∑ k, f k) = ∑ k : Fin (64 + 64), f k from rfl, Fin.sum_univ_add]
  rfl

/-- One entry of the packed product: `xp` is two rows `u 0`, `u 1` of 64 entries side by side, `wc` is a column of the
    block-diagonal matrix: the column `v` in half `h` and zeros in the other half. The 128-term product is row `u h`
    against `v`. -/
theorem packed_row (u : Fin 2 → Fin 64 → EReal) (v : Fin 64 → EReal) (h : Fin 2) (xp wc : Fin 128 → EReal)
    (hx : ∀ (g : Fin 2) (k : Fin 64), xp ⟨64 * g.val + k.val, by omega⟩ = u g k)
    (hw : ∀ (g : Fin 2) (k : Fin 64), wc ⟨64 * g.val + k.val, by omega⟩ = if g = h then v k else 0) :
    ∑ k, xp k * wc k = ∑ k : Fin 64, u h k * v k := by
  rw [sum_halves]
  have e0 : ∀ k : Fin 64, xp ⟨k.val, by omega⟩ * wc ⟨k.val, by omega⟩ = u 0 k * (if (0 : Fin 2) = h then v k else 0) := fun k => by
    have a := hx 0 k; have b := hw 0 k
    simp only [Fin.val_zero, Nat.mul_zero, Nat.zero_add] at a b
    rw [a, b]
  have e1 : ∀ k : Fin 64, xp ⟨64 + k.val, by omega⟩ * wc ⟨64 + k.val, by omega⟩ = u 1 k * (if (1 : Fin 2) = h then v k else 0) := fun k => by
    have a := hx 1 k; have b := hw 1 k
    simp only [Fin.val_one, Nat.mul_one] at a b
    rw [a, b]
  simp only [e0, e1]
  match h with
  | ⟨0, _⟩ => simp
  | ⟨1, _⟩ => simp

/-- One entry of the packed product against the block-diagonal sum: with the column `w + a` in half `h`, the 128-term product
    is row `u h` against `w` plus row `u h` against `a`, when row `u h` and `a` are real. -/
theorem packed_entry (u : Fin 2 → Fin 64 → EReal) (w a : Fin 64 → EReal) (h : Fin 2) (xp wc : Fin 128 → EReal)
    (hx : ∀ (g : Fin 2) (k : Fin 64), xp ⟨64 * g.val + k.val, by omega⟩ = u g k)
    (hw : ∀ (g : Fin 2) (k : Fin 64), wc ⟨64 * g.val + k.val, by omega⟩ = if g = h then w k + a k else 0)
    (hu : ∀ k, ∃ r : ℝ, u h k = (r : EReal)) (ha : ∀ k, ∃ r : ℝ, a k = (r : EReal)) :
    ∑ k, xp k * wc k = (∑ k : Fin 64, u h k * w k) + ∑ k : Fin 64, u h k * a k :=
  (packed_row u (fun k => w k + a k) h xp wc hx hw).trans (sum_mul_add (u h) w a hu ha)

end Cert.Linear

end
-- ==== Proof.Layout.lean ====
/-
  The layout operations around the packed product, each read at an entry.

  * `pack_apply`: a 1048576 × 64 array read row-major as 524288 × 128 puts rows `2p` and `2p + 1` side by side in row `p`:
    entry `(p, 64·g + k)` is entry `(2p + g, k)`.
  * `unpack_apply`: the way back: entry `(r, c)` of the 1048576 × 64 reading of a 524288 × 128 array is its entry
    `(r / 2, 64·(r mod 2) + c)`.
  * `blockdiag_apply`: the 128 × 128 matrix made of a 64 × 64 block `T` laid beside a block `Z`, over `Z` laid beside `T`:
    entry `(64·g + k, 64·h + c)` is `T (k, c)` on the diagonal blocks (`g = h`) and `Z (k, c)` off them.
-/
import Idealize.ShloMosaic.Lib.ValueIdx
import Idealize.ShloMosaic.Lib.ValueLayout
import Idealize.ShloMosaic.Lib.Pipeline.Value

noncomputable section

namespace Cert.Layout

open Idealize.ShloMosaic Idealize.ShloMosaic.ValueIdx

variable {α : Type}

/-- Two consecutive rows of 64 side by side in one row of 128. -/
theorem pack_apply (x : (⟨2, ![1048576, 64]⟩ : Shape).Idx → α)
    (h : (⟨2, ![1048576, 64]⟩ : Shape).ShapeCasts ⟨2, ![524288, 128]⟩) (p : Fin 524288) (g : Fin 2) (k : Fin 64) :
    shapeCast ⟨2, ![524288, 128]⟩ x h (ix2 p ⟨64 * g.val + k.val, by omega⟩) = x (ix2 ⟨2 * p.val + g.val, by omega⟩ k) := by
  refine shapeCast_apply x h _ _ ?_
  rw [Shape.rowMajor_val_two, Shape.rowMajor_val_two]
  show (2 * p.val + g.val) * 64 + k.val = p.val * 128 + (64 * g.val + k.val)
  omega

/-- A row of 128 cut back into two consecutive rows of 64. -/
theorem unpack_apply (y : (⟨2, ![524288, 128]⟩ : Shape).Idx → α)
    (h : (⟨2, ![524288, 128]⟩ : Shape).ShapeCasts ⟨2, ![1048576, 64]⟩) (r : Fin 1048576) (c : Fin 64) :
    shapeCast ⟨2, ![1048576, 64]⟩ y h (ix2 r c) = y (ix2 ⟨r.val / 2, by omega⟩ ⟨64 * (r.val % 2) + c.val, by omega⟩) := by
  refine shapeCast_apply y h _ _ ?_
  rw [Shape.rowMajor_val_two, Shape.rowMajor_val_two]
  show r.val / 2 * 128 + (64 * (r.val % 2) + c.val) = r.val * 64 + c.val
  omega

/-- The upper half: rows below 64 read the first piece. -/
theorem rows_top (A B : (⟨2, ![64, 128]⟩ : Shape).Idx → α)
    (h0 : Shape.Concatenates [⟨2, ![64, 128]⟩, ⟨2, ![64, 128]⟩] ⟨2, ![128, 128]⟩ 0) (k : Fin 64) (q : Fin 128) :
    concatenate ⟨2, ![128, 128]⟩ 0 [⟨⟨2, ![64, 128]⟩, A⟩, ⟨⟨2, ![64, 128]⟩, B⟩] h0 (ix2 ⟨64 * 0 + k.val, by omega⟩ q) = A (ix2 k q) :=
  concatenate_pair_apply_left 0 A B h0 _ rfl (ix2 k q) fun b => match b with
    | ⟨0, _⟩ => by show k.val = 64 * 0 + k.val; omega
    | ⟨1, _⟩ => rfl

/-- The lower half: rows from 64 on read the second piece, 64 rows up. -/
theorem rows_bottom (A B : (⟨2, ![64, 128]⟩ : Shape).Idx → α)
    (h0 : Shape.Concatenates [⟨2, ![64, 128]⟩, ⟨2, ![64, 128]⟩] ⟨2, ![128, 128]⟩ 0) (k : Fin 64) (q : Fin 128) :
    concatenate ⟨2, ![128, 128]⟩ 0 [⟨⟨2, ![64, 128]⟩, A⟩, ⟨⟨2, ![64, 128]⟩, B⟩] h0 (ix2 ⟨64 * 1 + k.val, by omega⟩ q) = B (ix2 k q) :=
  concatenate_pair_apply_right 0 A B h0 _ rfl rfl (ix2 k q)
    (fun b hb => match b with
      | ⟨0, _⟩ => absurd rfl hb
      | ⟨1, _⟩ => rfl)
    (by show k.val + 64 = 64 * 1 + k.val; omega)

/-- The left half of a row: columns below 64 read the first piece. -/
theorem cols_left (A B : (⟨2, ![64, 64]⟩ : Shape).Idx → α)
    (h1 : Shape.Concatenates [⟨2, ![64, 64]⟩, ⟨2, ![64, 64]⟩] ⟨2, ![64, 128]⟩ 1) (k c : Fin 64) :
    concatenate ⟨2, ![64, 128]⟩ 1 [⟨⟨2, ![64, 64]⟩, A⟩, ⟨⟨2, ![64, 64]⟩, B⟩] h1 (ix2 k ⟨64 * 0 + c.val, by omega⟩) = A (ix2 k c) :=
  concatenate_pair_apply_left 1 A B h1 _ rfl (ix2 k c) fun b => match b with
    | ⟨0, _⟩ => rfl
    | ⟨1, _⟩ => by show c.val = 64 * 0 + c.val; omega

/-- The right half of a row: columns from 64 on read the second piece, 64 columns back. -/
theorem cols_right (A B : (⟨2, ![64, 64]⟩ : Shape).Idx → α)
    (h1 : Shape.Concatenates [⟨2, ![64, 64]⟩, ⟨2, ![64, 64]⟩] ⟨2, ![64, 128]⟩ 1) (k c : Fin 64) :
    concatenate ⟨2, ![64, 128]⟩ 1 [⟨⟨2, ![64, 64]⟩, A⟩, ⟨⟨2, ![64, 64]⟩, B⟩] h1 (ix2 k ⟨64 * 1 + c.val, by omega⟩) = B (ix2 k c) :=
  concatenate_pair_apply_right 1 A B h1 _ rfl rfl (ix2 k c)
    (fun b hb => match b with
      | ⟨0, _⟩ => rfl
      | ⟨1, _⟩ => absurd rfl hb)
    (by show c.val + 64 = 64 * 1 + c.val; omega)

/-- The block-diagonal matrix: `T` beside `Z` over `Z` beside `T`. -/
theorem blockdiag_apply (T Z : (⟨2, ![64, 64]⟩ : Shape).Idx → α)
    (h1 : Shape.Concatenates [⟨2, ![64, 64]⟩, ⟨2, ![64, 64]⟩] ⟨2, ![64, 128]⟩ 1)
    (h0 : Shape.Concatenates [⟨2, ![64, 128]⟩, ⟨2, ![64, 128]⟩] ⟨2, ![128, 128]⟩ 0) (g h : Fin 2) (k c : Fin 64) :
    concatenate ⟨2, ![128, 128]⟩ 0
        [⟨⟨2, ![64, 128]⟩, concatenate ⟨2, ![64, 128]⟩ 1 [⟨⟨2, ![64, 64]⟩, T⟩, ⟨⟨2, ![64, 64]⟩, Z⟩] h1⟩,
         ⟨⟨2, ![64, 128]⟩, concatenate ⟨2, ![64, 128]⟩ 1 [⟨⟨2, ![64, 64]⟩, Z⟩, ⟨⟨2, ![64, 64]⟩, T⟩] h1⟩] h0
        (ix2 ⟨64 * g.val + k.val, by omega⟩ ⟨64 * h.val + c.val, by omega⟩)
      = if g = h then T (ix2 k c) else Z (ix2 k c) := by
  match g, h with
  | ⟨0, _⟩, ⟨0, _⟩ => exact (rows_top _ _ h0 k _).trans ((cols_left T Z h1 k c).trans (if_pos rfl).symm)
  | ⟨0, _⟩, ⟨1, _⟩ => exact (rows_top _ _ h0 k _).trans ((cols_right T Z h1 k c).trans (if_neg (fun e => absurd (show (0 : ℕ) = 1 from congrArg Fin.val e) (by decide))).symm)
  | ⟨1, _⟩, ⟨0, _⟩ => exact (rows_bottom _ _ h0 k _).trans ((cols_left Z T h1 k c).trans (if_neg (fun e => absurd (show (1 : ℕ) = 0 from congrArg Fin.val e) (by decide))).symm)
  | ⟨1, _⟩, ⟨1, _⟩ => exact (rows_bottom _ _ h0 k _).trans ((cols_right Z T h1 k c).trans (if_pos rfl).symm)

end Cert.Layout

end
-- ==== Proof.Entry.lean ====
/-
  What the product`s two operands hold when the kernel starts, entry by entry.

  The packed input is the argument `x` read two rows at a time: entry `(p, 64·g + k)` is `x (2p + g, k)`. The weight
  operand is block diagonal: with `W = base weight + adapter` (rows = output features), its entry `(64·g + k, 64·h + q)`
  is `W (q, k)` — the transpose of `W` — when `g = h`, and zero otherwise.
-/
import proofs.«115865_j10445360464556_2_alg».proof.Proof.Gen.KernelIdeal.Frame
import proofs.«115865_j10445360464556_2_alg».proof.Proof.Linear
import proofs.«115865_j10445360464556_2_alg».proof.Proof.Layout
import Idealize.ShloMosaic.Lib.StableHlo.Run
import Idealize.ShloMosaic.PureOps.Ideal.Laws

noncomputable section

namespace Cert.KernelIdeal.Packed

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The base weight as the program computes it from the codes and the scales. -/
def baseWeight (c : Dev nD) : FVec Ideal S64x64 .f32 :=
  Cert.Linear.dequant gather_S16_S64x64x1_S64x64_n_0_n_n_0_2_1 bcast_S_S64x64 bcast_S64x64_S64x64x1_0_1 bcast_S64_S64x1_0
    bcast_S64x1_S64x64_0_1 lit0 (m ((c : Thread nD τ).loc main_arg1)) (m ((c : Thread nD τ).loc main_arg2))

/-- The packed input at the kernel`s start: the argument read as 524288 rows of 128. -/
theorem entry_x (c : Dev nD) : (V m c main_v16 : S524288x128.Idx → EReal)
    = shapeCast S524288x128 (m ((c : Thread nD τ).loc main_arg0)) shapeCasts_S1048576x64_S524288x128 := by
  show StableHlo.after hostOps0 (fun b => m (c, b)) (Proc.devRef .tc main_v16) = _
  after_results
  rfl

set_option maxHeartbeats 4000000 in
/-- The weight operand at the kernel`s start: the transposed sum of base weight and adapter twice on the diagonal,
    zero blocks beside them. -/
theorem entry_w (c : Dev nD) : (V m c main_v15 : S128x128.Idx → EReal)
    = concatenate S128x128 0
        [⟨S64x128, concatenate S64x128 1
            [⟨S64x64, transpose S64x64 [1, 0] (addf (baseWeight m c) (m ((c : Thread nD τ).loc main_arg3))) transposes_S64x64_S64x64_1_0⟩,
             ⟨S64x64, broadcastInDim S64x64 ![] bcast_S_S64x64 (constant (F := Ideal) S_ .f32 0x00000000#32)⟩] concatenates_S64x64_S64x64_S64x128_d1⟩,
         ⟨S64x128, concatenate S64x128 1
            [⟨S64x64, broadcastInDim S64x64 ![] bcast_S_S64x64 (constant (F := Ideal) S_ .f32 0x00000000#32)⟩,
             ⟨S64x64, transpose S64x64 [1, 0] (addf (baseWeight m c) (m ((c : Thread nD τ).loc main_arg3))) transposes_S64x64_S64x64_1_0⟩] concatenates_S64x64_S64x64_S64x128_d1⟩]
        concatenates_S64x128_S64x128_S128x128_d0 := by
  show StableHlo.after hostOps0 (fun b => m (c, b)) (Proc.devRef .tc main_v15) = _
  after_results
  rfl

/-- Entry `(p, 64·g + k)` of the packed input is entry `(2p + g, k)` of the argument. -/
theorem entry_x_apply (c : Dev nD) (p : Fin 524288) (g : Fin 2) (k : Fin 64) :
    V m c main_v16 (ix2 p ⟨64 * g.val + k.val, by omega⟩) = m ((c : Thread nD τ).loc main_arg0) (ix2 ⟨2 * p.val + g.val, by omega⟩ k) :=
  (congrFun (entry_x m c) _).trans (Cert.Layout.pack_apply _ _ p g k)

/-- Entry `(64·g + k, 64·h + q)` of the weight operand: `W (q, k)` on the diagonal blocks, zero off them. -/
theorem entry_w_apply (c : Dev nD) (g h : Fin 2) (k q : Fin 64) :
    V m c main_v15 (ix2 ⟨64 * g.val + k.val, by omega⟩ ⟨64 * h.val + q.val, by omega⟩)
      = if g = h then baseWeight m c (ix2 q k) + m ((c : Thread nD τ).loc main_arg3) (ix2 q k) else 0 := by
  refine (congrFun (entry_w m c) _).trans ((Cert.Layout.blockdiag_apply _ _ _ _ g h k q).trans ?_)
  have eT : transpose S64x64 [1, 0] (addf (baseWeight m c) (m ((c : Thread nD τ).loc main_arg3))) transposes_S64x64_S64x64_1_0 (ix2 k q)
      = baseWeight m c (ix2 q k) + m ((c : Thread nD τ).loc main_arg3) (ix2 q k) :=
    transpose_ix2_apply _ _ k q
  have eZ : broadcastInDim S64x64 ![] bcast_S_S64x64 (constant (F := Ideal) S_ .f32 0x00000000#32) (ix2 k q) = (0 : EReal) :=
    (broadcastInDim_apply ![] bcast_S_S64x64 _ (ix2 k q) ix0 (fun a => a.elim0)).trans Ideal.ofBits_zero_f32
  rw [eT, eZ]

end Cert.KernelIdeal.Packed

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.Body.lean ====
/-
  The kernel body`s arithmetic at one entry. The body loads a block of 8192 rows of the packed input (128 entries per
  row) and the whole 128 × 128 weight, rounds both to bfloat16 (the identity on the extended reals) and multiplies them into
  a zero accumulator: entry `(p, q)` of what it stores is the product of row `p` of the block with column `q` of the weight,
  a sum of 128 terms.
-/
import proofs.«115865_j10445360464556_2_alg».proof.Proof.Gen.KernelIdeal.Skeleton
import proofs.«115865_j10445360464556_2_alg».proof.Proof.LibMlpRows

noncomputable section

namespace Cert.KernelIdeal.Packed

open Cert.KernelIdeal Cert.KernelIdeal.Gen Idealize.ShloMosaic Idealize.ShloMosaic.ValueIdx
open scoped BigOperators

/-- The printed dimension numbers are the plain ones: rows × contraction times contraction × columns. -/
theorem dot_plain : dot_S8192x128_S128x128_S8192x128_1_0_0_1_n_n = DotDims.plain 8192 128 128 := rfl

/-- Entry `(p, q)` of the stored product: row `p` of the loaded block against column `q` of the loaded weight. -/
theorem pay_apply (x0 : FVec Ideal S8192x128 .f32) (x1 : FVec Ideal S128x128 .f32) (p : Fin 8192) (q : Fin 128) :
    k0_pay1 (F := Ideal) x0 x1 (ix2 p q) = ∑ k : Fin 128, x0 (ix2 p k) * x1 (ix2 k q) := by
  unfold k0_pay1
  show FloatOps.matmul dot_S8192x128_S128x128_S8192x128_1_0_0_1_n_n none
      (truncf .bf16 (shapeCast S8192x128 x0 shapeCasts_S8192x128_S8192x128) bitsLt_bf16_f32)
      (truncf .bf16 (shapeCast S128x128 x1 shapeCasts_S128x128_S128x128) bitsLt_bf16_f32)
      (constant S8192x128 .f32 0x00000000#32) (ix2 p q) = _
  rw [dot_plain]
  refine (Cert.LibMlp.matmul_zero_plain 8192 128 128 none _ _ p q).trans ?_
  simp only [truncf_apply, shapeCast_self]

end Cert.KernelIdeal.Packed

end
-- ==== Proof.Blocks.lean ====
/-
  From blocks to the array. Grid point `t` (of 64) loads rows `8192·t … 8192·t + 8191` of the packed input and the whole
  weight operand, and writes the same rows of the result. Each written block is the restriction of ONE function of the two
  operand arrays — `product`: entry `(p, q)` is row `p` of the packed input against column `q` of the weight operand — and
  the 64 blocks cover the result array, so the array ends holding `product`.
-/
import proofs.«115865_j10445360464556_2_alg».proof.Proof.Gen.KernelIdeal.Frame
import proofs.«115865_j10445360464556_2_alg».proof.Proof.Body
import Idealize.ShloMosaic.Lib.Pipeline.Value

noncomputable section

namespace Cert.KernelIdeal.Packed

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ)

/-- The packed product of whole arrays: entry `(p, q)` is row `p` of `xp` against column `q` of `wd`. -/
def product (xp : S524288x128.Idx → EReal) (wd : S128x128.Idx → EReal) : S524288x128.Idx → EReal :=
  fun j => ∑ k : Fin 128, xp (ix2 (j 0) k) * wd (ix2 k (j 1))

theorem product_ix2 (xp : S524288x128.Idx → EReal) (wd : S128x128.Idx → EReal) (p : Fin 524288) (q : Fin 128) :
    product xp wd (ix2 p q) = ∑ k : Fin 128, xp (ix2 p k) * wd (ix2 k q) := rfl

theorem zero_offsets : (![0, 0] : Fin 2 → Nat) = fun _ => 0 := funext fun a => by fin_cases a <;> rfl

/-- The printed index maps over the 64 grid points: the input and result blocks are block `t` along the rows, the weight`s
    block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 64 := by
  have h : t.val < grid0.N := t.isLt
  rw [N_0] at h
  exact h

/-- The packed input`s block at point `t` is rows `8192·t …` of the array. -/
theorem blk_x (c : Dev nD) (t : Fin cfg0.N) (p : Fin 8192) (k : Fin 128) :
    iblk m c 0 t (ix2 p k) = V m c main_v16 (ix2 ⟨8192 * t.val + p.val, by have := point_lt t; omega⟩ k) := by
  obtain ⟨e0, e1, -, -, -, -⟩ := idx_facts t
  show V m c main_v16 (((cfg0.win 0).blk t).view.emb (ix2 p k)) = V m c main_v16 _
  refine congrArg _ (funext fun a => Fin.ext ?_)
  match a with
  | ⟨0, _⟩ => show win0_0.index t (0 : Fin 2) * 8192 + 1 * p.val = 8192 * t.val + p.val; omega
  | ⟨1, _⟩ => show win0_0.index t (1 : Fin 2) * 128 + 1 * k.val = k.val; omega

/-- The weight operand`s block is the whole matrix at every point. -/
theorem blk_w (c : Dev nD) (t : Fin cfg0.N) (k q : Fin 128) :
    iblk m c 1 t (ix2 k q) = V m c main_v15 (ix2 k q) := by
  obtain ⟨-, -, e2, e3, -, -⟩ := idx_facts t
  show V m c main_v15 (((cfg0.win 1).blk t).view.emb (ix2 k q)) = V m c main_v15 _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Where entry `(p, q)` of the result`s block at point `t` sits in the result array. -/
theorem emb_out (t : Fin cfg0.N) (p : Fin 8192) (q : Fin 128) :
    ((cfg0.win 2).blk t).view.emb (ix2 p q) = ix2 ⟨8192 * t.val + p.val, by have := point_lt t; omega⟩ q := by
  obtain ⟨-, -, -, -, e4, e5⟩ := idx_facts t
  refine funext fun a => Fin.ext ?_
  match a with
  | ⟨0, _⟩ => show win0_2.index t (0 : Fin 2) * 8192 + 1 * p.val = 8192 * t.val + p.val; omega
  | ⟨1, _⟩ => show win0_2.index t (1 : Fin 2) * 128 + 1 * q.val = q.val; omega

/-- What point `t` writes back is block `t` of the packed product of the two operand arrays. -/
theorem flushed_eq (c : Dev nD) (t : Fin cfg0.N) :
    (dats m 0 c).flushed 2 t = ((cfg0.win 2).blk t).view.read (Elt Ideal) (product (V m c main_v16) (V m c main_v15)) := by
  show (cfg0.win 2).cut (grid0.coords t) ((dats m 0 c).after 2 t) = _
  rw [after0_2]
  unfold out0_2
  rw [View.canon_unit_zero zero_offsets]
  simp only [View.ld_unit_zero (S := S8192x128) zero_offsets, View.ld_unit_zero (S := S128x128) zero_offsets]
  show (k0_pay1 (F := Ideal) (iblk m c 0 t) (iblk m c 1 t) : S8192x128.Idx → EReal)
    = fun j : S8192x128.Idx => product (V m c main_v16) (V m c main_v15) (((cfg0.win 2).blk t).view.emb j)
  funext j
  obtain ⟨p, q, rfl⟩ : ∃ (p : Fin 8192) (q : Fin 128), j = ix2 p q := ⟨j 0, j 1, eq_ix2 j⟩
  refine (pay_apply _ _ p q).trans ?_
  rw [emb_out t p q, product_ix2]
  refine Finset.sum_congr rfl fun k _ => ?_
  rw [blk_x m c t p k, blk_w m c t k q]

/-- An index of the result array is in point `t``s block iff each coordinate is in the block`s range on its axis. -/
theorem mem_blk (t : Fin cfg0.N) (i : S524288x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v17).slice (win0_2.rect t)).set ↔ _
  rw [View.set_slice_whole, Rect.mem_set_unit]
  exact Iff.rfl

/-- Every row of the result array is in the block of the point `row / 8192`. -/
theorem cover (i : S524288x128.Idx) : ∃ t : Fin cfg0.N, (cfg0.win 2).flush t = true ∧ i ∈ ((cfg0.win 2).blk t).view.set := by
  have hi0 : (i 0).val < 524288 := (i 0).isLt
  have hi1 : (i 1).val < 128 := (i 1).isLt
  obtain ⟨t, ht⟩ : ∃ t : Fin cfg0.N, t.val = (i 0).val / 8192 :=
    ⟨⟨(i 0).val / 8192, by show (i 0).val / 8192 < grid0.N; rw [N_0]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 128 ≤ (i 1).val ∧ (i 1).val < win0_2.index t (1 : Fin 2) * 128 + 128
    omega

/-- The result array after the kernel: the packed product of the two operand arrays as the kernel found them. -/
theorem final (c : Dev nD) : (dats m 0 c).arrAt 2 cfg0.N = product (V m c main_v16) (V m c main_v15) :=
  (dats m 0 c).arrAt_eq_of_cover 2 (product (V m c main_v16) (V m c main_v15)) (fun t _ => flushed_eq m c t) cover

end Cert.KernelIdeal.Packed

end
-- ==== Proof.KernelValue.lean ====
/-
  The kernel program`s result. After the kernel the packed result array holds the packed product (`final`); the program`s
  last line reads it back as 1048576 rows of 64. Entry `(r, c)` of that is entry `(r / 2, 64·(r mod 2) + c)` of the packed
  product: the 128-term product of the packed row `r / 2` — rows `2·(r / 2)` and `2·(r / 2) + 1` of `x` side by side — with
  the column of the block-diagonal weight that holds row `c` of `W = base + adapter` in half `r mod 2` and zeros in the
  other half. The 64 terms against the zeros vanish, the other 64 are `x (r, k) · (base (c, k) + adapter (c, k))`, and
  since the entries of `x` and of the adapter are real numbers the product distributes over the sum: the entry is
  `Σ_k x (r, k)·base (c, k) + Σ_k x (r, k)·adapter (c, k)`.
-/
import proofs.«115865_j10445360464556_2_alg».proof.Proof.Gen.KernelIdeal.Frame
import proofs.«115865_j10445360464556_2_alg».proof.Proof.Entry
import proofs.«115865_j10445360464556_2_alg».proof.Proof.Blocks
import proofs.«115865_j10445360464556_2_alg».proof.Proof.Linear
import proofs.«115865_j10445360464556_2_alg».proof.Proof.Layout
import Idealize.ShloMosaic.Lib.StableHlo.Run

noncomputable section

namespace Cert.KernelIdeal.Packed

open Cert.KernelIdeal Cert.KernelIdeal.Gen Idealize.ShloMosaic Idealize.ShloMosaic.TcCoe Idealize.ShloMosaic.ValueIdx
open Idealize.SL.Sem Idealize.ShloMosaic.StableHlo
open scoped BigOperators

variable (m : (ℓ : Loc nD τ sig) → Buf (Elt Ideal) ℓ) (ρ : Dev nD → PrngReg)

/-- The program`s result buffer after its last line: the packed product read back as 1048576 rows of 64. -/
theorem tail_eq (c : Dev nD) :
    Pipeline.afterTail₀ cfgs (dats m) 0 (V0 m) [hostOps1] c main_v18
      = shapeCast S1048576x64 (product (V m c main_v16) (V m c main_v15)) shapeCasts_S524288x128_S1048576x64 := by
  unfold Pipeline.afterTail₀
  show StableHlo.after hostOps1 _ (Proc.devRef .tc main_v18) = _
  after_results
  exact congrArg (fun A => shapeCast S1048576x64 A shapeCasts_S524288x128_S1048576x64)
    ((Pipeline.withArrays_arr spec0 launch0.win.arr_inj c _ _ 2).trans (final m c))

/-- One entry of the result, for real `x` and a real adapter. -/
theorem result_apply (c : Dev nD)
    (hx : ∀ i, ∃ r : ℝ, m ((c : Thread nD τ).loc main_arg0) i = (r : EReal))
    (ha : ∀ i, ∃ r : ℝ, m ((c : Thread nD τ).loc main_arg3) i = (r : EReal)) (r : Fin 1048576) (q : Fin 64) :
    shapeCast S1048576x64 (product (V m c main_v16) (V m c main_v15)) shapeCasts_S524288x128_S1048576x64 (ix2 r q)
      = Cert.Linear.twoProducts (m ((c : Thread nD τ).loc main_arg0)) (baseWeight m c) (m ((c : Thread nD τ).loc main_arg3)) (ix2 r q) := by
  have hh : r.val % 2 < 2 := Nat.mod_lt _ (by decide)
  have hp : r.val / 2 < 524288 := by have := r.isLt; omega
  refine (Cert.Layout.unpack_apply _ _ r q).trans ?_
  rw [product_ix2]
  refine (Cert.Linear.packed_entry
    (fun g k => m ((c : Thread nD τ).loc main_arg0) (ix2 ⟨2 * (r.val / 2) + g.val, by have := g.isLt; omega⟩ k))
    (fun k => baseWeight m c (ix2 q k)) (fun k => m ((c : Thread nD τ).loc main_arg3) (ix2 q k))
    ⟨r.val % 2, hh⟩
    (fun j => V m c main_v16 (ix2 ⟨r.val / 2, hp⟩ j))
    (fun j => V m c main_v15 (ix2 j ⟨64 * (r.val % 2) + q.val, by omega⟩))
    (fun g k => entry_x_apply m c ⟨r.val / 2, hp⟩ g k)
    (fun g k => entry_w_apply m c g ⟨r.val % 2, hh⟩ k q) (fun k => hx _) (fun k => ha _)).trans ?_
  have er : (⟨2 * (r.val / 2) + r.val % 2, by have := r.isLt; omega⟩ : Fin 1048576) = r :=
    Fin.ext (by show 2 * (r.val / 2) + r.val % 2 = r.val; omega)
  exact congrArg (fun i : Fin 1048576 => Cert.Linear.twoProducts (m ((c : Thread nD τ).loc main_arg0)) (baseWeight m c)
    (m ((c : Thread nD τ).loc main_arg3)) (ix2 i q)) er

/-- The result, as one function of the arguments. -/
theorem result_eq (c : Dev nD)
    (hx : ∀ i, ∃ r : ℝ, m ((c : Thread nD τ).loc main_arg0) i = (r : EReal))
    (ha : ∀ i, ∃ r : ℝ, m ((c : Thread nD τ).loc main_arg3) i = (r : EReal)) :
    shapeCast S1048576x64 (product (V m c main_v16) (V m c main_v15)) shapeCasts_S524288x128_S1048576x64
      = Cert.Linear.twoProducts (m ((c : Thread nD τ).loc main_arg0)) (baseWeight m c) (m ((c : Thread nD τ).loc main_arg3)) := by
  funext i
  obtain ⟨r, q, rfl⟩ : ∃ (r : Fin 1048576) (q : Fin 64), i = ix2 r q := ⟨i 0, i 1, eq_ix2 i⟩
  exact result_apply m c hx ha r q

/-- The program`s run: it ends, nothing faults, its result is `x · baseᵀ + x · adapterᵀ` and its arguments are unchanged —
    for real `x` and a real adapter. -/
theorem run (hx : ∀ (c : Dev nD) i, ∃ r : ℝ, m ((c : Thread nD τ).loc main_arg0) i = (r : EReal))
    (ha : ∀ (c : Dev nD) i, ∃ r : ℝ, m ((c : Thread nD τ).loc main_arg3) i = (r : EReal)) :
    θ_run defs (onTc (τ := τ) (main (F := Ideal))) ⟨m, fun _ => 0, ρ⟩ fun r => ∀ c : Dev nD,
      r.2.mem ((c : Thread nD τ).loc main_v18)
          = Cert.Linear.twoProducts (m ((c : Thread nD τ).loc main_arg0)) (baseWeight m c) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v18 (Pipeline.mem_restRefs_of main_v18 (by decide) (by decide))).trans
        ((tail_eq m c).trans (result_eq m c (hx c) (ha c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Packed

end
-- ==== Proof.RefRun.lean ====
/-
  The reference program's @main as the list of its 18 host operations, and its run read back: every weakly fair
  execution terminates with the result buffer at the operations' composed term of the four arguments' launch
  contents, the arguments unchanged.

  The composed term: the base weight is the sixteen-entry table gathered at the codes (a negative code first raised
  by 16) times the per-row scale broadcast along the row; the result is the input against the transposed base weight
  plus the input against the transposed adapter, two `dot_general`s and one addition.
-/
import proofs.«115865_j10445360464556_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 18 operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S64x64 ![] bcast_S_S64x64 : (⟨S_, .i32⟩ : BufTy).Contents (Elt F) → (⟨S64x64, .i32⟩ : BufTy).Contents (Elt F)),
    binary main_arg1 main_v0 main_v1 (cmpi .slt : (⟨S64x64, .i32⟩ : BufTy).Contents (Elt F) → (⟨S64x64, .i32⟩ : BufTy).Contents (Elt F) → (⟨S64x64, .i1⟩ : BufTy).Contents (Elt F)),
    nullary main_c_0 (constantI S_ 32 16#32),
    unary main_c_0 main_v2 (broadcastInDim S64x64 ![] bcast_S_S64x64 : (⟨S_, .i32⟩ : BufTy).Contents (Elt F) → (⟨S64x64, .i32⟩ : BufTy).Contents (Elt F)),
    binary main_arg1 main_v2 main_v3 (addi : (⟨S64x64, .i32⟩ : BufTy).Contents (Elt F) → (⟨S64x64, .i32⟩ : BufTy).Contents (Elt F) → (⟨S64x64, .i32⟩ : BufTy).Contents (Elt F)),
    ternary main_v1 main_v3 main_arg1 main_v4 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    unary main_v4 main_v5 (broadcastInDim S64x64x1 ![0, 1] bcast_S64x64_S64x64x1_0_1 : (⟨S64x64, .i32⟩ : BufTy).Contents (Elt F) → (⟨S64x64x1, .i32⟩ : BufTy).Contents (Elt F)),
    binary main_cst main_v5 main_v6 ((fun x i => Host.gather gather_S16_S64x64x1_S64x64_n_0_n_n_0_2_1 x i) : (⟨S16, .f32⟩ : BufTy).Contents (Elt F) → (⟨S64x64x1, .i32⟩ : BufTy).Contents (Elt F) → (⟨S64x64, .f32⟩ : BufTy).Contents (Elt F)),
    unary main_arg2 main_v7 (broadcastInDim S64x1 ![0] bcast_S64_S64x1_0 : (⟨S64, .f32⟩ : BufTy).Contents (Elt F) → (⟨S64x1, .f32⟩ : BufTy).Contents (Elt F)),
    unary main_v7 main_v8 (broadcastInDim S64x64 ![0, 1] bcast_S64x1_S64x64_0_1 : (⟨S64x1, .f32⟩ : BufTy).Contents (Elt F) → (⟨S64x64, .f32⟩ : BufTy).Contents (Elt F)),
    binary main_v6 main_v8 main_v9 (mulf : (⟨S64x64, .f32⟩ : BufTy).Contents (Elt F) → (⟨S64x64, .f32⟩ : BufTy).Contents (Elt F) → (⟨S64x64, .f32⟩ : BufTy).Contents (Elt F)),
    unary main_v9 main_v10 ((transpose S64x64 [1, 0] · transposes_S64x64_S64x64_1_0) : (⟨S64x64, .f32⟩ : BufTy).Contents (Elt F) → (⟨S64x64, .f32⟩ : BufTy).Contents (Elt F)),
    binary main_arg0 main_v10 main_v11 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F)),
    unary main_arg3 main_v12 ((transpose S64x64 [1, 0] · transposes_S64x64_S64x64_1_0) : (⟨S64x64, .f32⟩ : BufTy).Contents (Elt F) → (⟨S64x64, .f32⟩ : BufTy).Contents (Elt F)),
    binary main_arg0 main_v12 main_v13 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F)),
    binary main_v11 main_v13 main_v14 (addf : (⟨S1048576x64, .f32⟩ : BufTy).Contents (Elt F) → (⟨S1048576x64, .f32⟩ : BufTy).Contents (Elt F) → (⟨S1048576x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., unary_bufs_sub .., binary_bufs_sub .., unary_bufs_sub .., binary_bufs_sub .., binary_bufs_sub ..⟩

/-- The base weight as the first thirteen operations compute it from the codes and the scales. -/
abbrev baseWeight (codes : (⟨S64x64, .i32⟩ : BufTy).Contents (Elt F)) (scale : (⟨S64, .f32⟩ : BufTy).Contents (Elt F)) :
    (⟨S64x64, .f32⟩ : BufTy).Contents (Elt F) :=
  mulf (Host.gather gather_S16_S64x64x1_S64x64_n_0_n_n_0_2_1 (fun i => FloatOps.ofBits .f32 (lit0 (S16.rowMajor i)))
      (broadcastInDim S64x64x1 ![0, 1] bcast_S64x64_S64x64x1_0_1
        (select (cmpi .slt codes (broadcastInDim S64x64 ![] bcast_S_S64x64 (constantI S_ 32 0#32)))
          (addi codes (broadcastInDim S64x64 ![] bcast_S_S64x64 (constantI S_ 32 16#32))) codes)))
    (broadcastInDim S64x64 ![0, 1] bcast_S64x1_S64x64_0_1 (broadcastInDim S64x1 ![0] bcast_S64_S64x1_0 scale))

/-- The last five operations: the input against the transposed weight plus the input against the transposed adapter. -/
abbrev twoDots (x : (⟨S1048576x64, .f32⟩ : BufTy).Contents (Elt F)) (wq a : (⟨S64x64, .f32⟩ : BufTy).Contents (Elt F)) :
    (⟨S1048576x64, .f32⟩ : BufTy).Contents (Elt F) :=
  addf (Host.dotGeneral dot_S1048576x64_S64x64_S1048576x64_1_0_0_1_n_n none x (transpose S64x64 [1, 0] wq transposes_S64x64_S64x64_1_0))
    (Host.dotGeneral dot_S1048576x64_S64x64_S1048576x64_1_0_0_1_n_n none x (transpose S64x64 [1, 0] a transposes_S64x64_S64x64_1_0))

/-- On the device, for any float values, from any memory with zero counters: every weakly fair execution of @main
    terminates with the result at the operations' composed term of the four arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
          = twoDots (m ((c.tc : Thread nD τ).loc main_arg0))
              (baseWeight (m ((c.tc : Thread nD τ).loc main_arg1)) (m ((c.tc : Thread nD τ).loc main_arg2)))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v14).trans (by after_results; rfl),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.ReferenceIdeal.RefRun

end
-- ==== Proof.RefValue.lean ====
/-
  The reference program's result at the extended reals, as the certificate's mathematics names it.

  Entry `(r, c)` of a `dot_general` of `x` (1048576 × 64) against a transposed 64 × 64 matrix `w` is
  `Σ_k x[r,k]·wᵀ[k,c] = Σ_k x[r,k]·w[c,k]`; the program adds two such products, one for the base weight and one for
  the adapter, which is `Cert.Linear.twoProducts` term by term — no finiteness is needed. The base weight the program
  feeds to the first product is, operation for operation, `Cert.Linear.dequant` of the codes and the scales.
-/
import proofs.«115865_j10445360464556_2_alg».proof.Proof.RefRun
import proofs.«115865_j10445360464556_2_alg».proof.Proof.Linear
import proofs.«115865_j10445360464556_2_alg».proof.Proof.LibMlpRows
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The program's `dot_general` has the plain dimension numbers: rows × contraction times contraction × columns. -/
theorem dot_eq_plain : dot_S1048576x64_S64x64_S1048576x64_1_0_0_1_n_n = DotDims.plain 1048576 64 64 := rfl

/-- One `dot_general` against a transposed matrix, at an entry: row `r` of `x` against row `c` of `w`. -/
theorem dot_transpose_apply (x : FVec Ideal S1048576x64 .f32) (w : FVec Ideal S64x64 .f32) (r : Fin 1048576) (c : Fin 64) :
    Host.dotGeneral dot_S1048576x64_S64x64_S1048576x64_1_0_0_1_n_n none x (transpose S64x64 [1, 0] w transposes_S64x64_S64x64_1_0) (ix2 r c)
      = ∑ k : Fin 64, x (ix2 r k) * w (ix2 c k) := by
  rw [dot_eq_plain]
  refine (Cert.LibMlp.dotGeneral_plain 1048576 64 64 none .single x _ r c).trans ?_
  refine Finset.sum_congr rfl fun k _ => ?_
  rw [transpose_ix2_apply w transposes_S64x64_S64x64_1_0 k c]

/-- The last five operations at an entry: the two sums of `twoProducts`. -/
theorem twoDots_apply (x : FVec Ideal S1048576x64 .f32) (wq a : FVec Ideal S64x64 .f32) (r : Fin 1048576) (c : Fin 64) :
    addf (Host.dotGeneral dot_S1048576x64_S64x64_S1048576x64_1_0_0_1_n_n none x (transpose S64x64 [1, 0] wq transposes_S64x64_S64x64_1_0))
        (Host.dotGeneral dot_S1048576x64_S64x64_S1048576x64_1_0_0_1_n_n none x (transpose S64x64 [1, 0] a transposes_S64x64_S64x64_1_0)) (ix2 r c)
      = Cert.Linear.twoProducts x wq a (ix2 r c) := by
  rw [addf_apply, dot_transpose_apply x wq r c, dot_transpose_apply x a r c]
  rfl

/-- The last five operations are `twoProducts`. -/
theorem twoDots_eq (x : FVec Ideal S1048576x64 .f32) (wq a : FVec Ideal S64x64 .f32) :
    addf (Host.dotGeneral dot_S1048576x64_S64x64_S1048576x64_1_0_0_1_n_n none x (transpose S64x64 [1, 0] wq transposes_S64x64_S64x64_1_0))
        (Host.dotGeneral dot_S1048576x64_S64x64_S1048576x64_1_0_0_1_n_n none x (transpose S64x64 [1, 0] a transposes_S64x64_S64x64_1_0))
      = Cert.Linear.twoProducts x wq a := by
  funext i
  obtain ⟨r, c, rfl⟩ : ∃ (r : Fin 1048576) (c : Fin 64), i = ix2 r c := ⟨i 0, i 1, eq_ix2 i⟩
  exact twoDots_apply x wq a r c

/-- The first thirteen operations are `dequant` of the codes and the scales. -/
theorem baseWeight_eq (codes : IVec S64x64 32) (scale : FVec Ideal S64 .f32) :
    RefRun.baseWeight (F := Ideal) codes scale
      = Cert.Linear.dequant gather_S16_S64x64x1_S64x64_n_0_n_n_0_2_1 bcast_S_S64x64 bcast_S64x64_S64x64x1_0_1 bcast_S64_S64x1_0
          bcast_S64x1_S64x64_0_1 lit0 codes scale := rfl

/-- On the device, from any memory with zero counters: every weakly fair execution of the reference's @main at the
    extended reals terminates with the result at `twoProducts` of the input, the dequantized base weight and the adapter,
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = Cert.Linear.twoProducts (m ((c.tc : Thread nD τ).loc main_arg0))
          (Cert.Linear.dequant gather_S16_S64x64x1_S64x64_n_0_n_n_0_2_1 bcast_S_S64x64 bcast_S64x64_S64x64x1_0_1 bcast_S64_S64x1_0 bcast_S64x1_S64x64_0_1 lit0 (m ((c.tc : Thread nD τ).loc main_arg1)) (m ((c.tc : Thread nD τ).loc main_arg2)))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => ⟨(h c).1.trans
      ((twoDots_eq (m ((c.tc : Thread nD τ).loc main_arg0))
          (RefRun.baseWeight (F := Ideal) (m ((c.tc : Thread nD τ).loc main_arg1)) (m ((c.tc : Thread nD τ).loc main_arg2)))
          (m ((c.tc : Thread nD τ).loc main_arg3))).trans
        (congrArg (fun w => Cert.Linear.twoProducts (m ((c.tc : Thread nD τ).loc main_arg0)) w (m ((c.tc : Thread nD τ).loc main_arg3)))
          (baseWeight_eq (m ((c.tc : Thread nD τ).loc main_arg1)) (m ((c.tc : Thread nD τ).loc main_arg2))))),
      (h c).2⟩)
    (RefRun.run (F := Ideal) m ρ)

end Cert.ReferenceIdeal.RefValue

end
-- ==== Proof.Finite.lean ====
import proofs.«115865_j10445360464556_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal

/-!
# Finiteness from the precondition

The precondition says, for each of three float arrays, that every entry `v` satisfies `|v| < +∞`
(the three tests joined by `and`).  On the extended reals `|v|` is `max v (-v)`, and an extended
real whose absolute value is strictly below `⊤` is neither `⊤` nor `⊥`: it is a real number.
This module reads that off for the two arrays whose entries enter the products: the activations
and the adapter weights.
-/

namespace Cert.Finite

open Idealize.ShloMosaic Cert.Pre_finite_inputs

/-- An extended real whose absolute value `max v (-v)` is strictly below `⊤` is a real number. -/
theorem real_of_abs_lt_top (v : EReal) (h : max v (-v) < ⊤) : ∃ r : ℝ, v = (r : EReal) := by
  induction v using EReal.rec with
  | bot => simp at h
  | top => simp at h
  | coe r => exact ⟨r, rfl⟩

/-- The f32 pattern `0x7F800000` denotes `+∞`. -/
theorem ofBits_inf : Ideal.ofBits .f32 0x7F800000#32 = (⊤ : EReal) := by
  simp [Ideal.ofBits, Ideal.ieee]

/-- The element test: if the comparison `|v| < +∞` came out true, `v` is a real number. -/
theorem real_of_test (v : Ideal .f32)
    (h : FloatOps.cmpf .olt (FloatOps.hostAbsf v) (FloatOps.ofBits (F := Ideal) .f32 0x7F800000#32) = 1#1) :
    ∃ r : ℝ, v = (r : EReal) := by
  have h' : Ideal.cmp .olt (max (v : EReal) (-(v : EReal))) (Ideal.ofBits .f32 0x7F800000#32) = 1#1 := h
  rw [ofBits_inf] at h'
  unfold Ideal.cmp at h'
  by_cases hlt : max (v : EReal) (-(v : EReal)) < ⊤
  · exact real_of_abs_lt_top v hlt
  · simp [hlt] at h'

/-- The rank-0 shape has one index. -/
instance : Subsingleton S_.Idx := ⟨fun a b => funext fun d => d.elim0⟩

theorem real_of_pre (x : FVec Ideal Cert.Pre_finite_inputs.S1048576x64 .f32) (codes : IVec Cert.Pre_finite_inputs.S64x64 32)
    (s : FVec Ideal Cert.Pre_finite_inputs.S64 .f32) (a : FVec Ideal Cert.Pre_finite_inputs.S64x64 .f32)
    (h : Cert.Pre_finite_inputs.fn (F := Ideal) x codes s a = fun _ => 1#1) :
    (∀ i, ∃ r : ℝ, x i = (r : EReal)) ∧ (∀ i, ∃ r : ℝ, a i = (r : EReal)) := by
  have h0 := congrFun h ValueIdx.ix0
  dsimp only [fn] at h0
  obtain ⟨h01, h3⟩ := IntOp.andi_eq_one.1 h0
  obtain ⟨h1, _⟩ := IntOp.andi_eq_one.1 h01
  refine ⟨fun i => ?_, fun i => ?_⟩
  · have e := Host.reduce_andi_all _ _ _ _ _ h1 i
    rw [ValueIdx.cmpf_apply, ValueIdx.broadcastInDim_scalar_apply] at e
    exact real_of_test (x i) e
  · have e := Host.reduce_andi_all _ _ _ _ _ h3 i
    rw [ValueIdx.cmpf_apply, ValueIdx.broadcastInDim_scalar_apply] at e
    exact real_of_test (a i) e

end Cert.Finite
-- ==== Proof.lean ====
/-
  A linear layer with a quantized base weight and an adapter, on an input `x` of 1048576 rows and 64 columns:
  `y = x · baseᵀ + x · adapterᵀ`, where `base` is a 64 × 64 matrix looked up in a sixteen-entry codebook and scaled row by
  row, and `adapter` is a second 64 × 64 matrix.

  The reference computes the two products and adds them. The kernel program adds the two matrices first, lays the
  transposed sum twice on the diagonal of a 128 × 128 matrix, reads `x` two rows at a time as 524288 rows of 128, multiplies
  8192 packed rows at a time (64 grid points) and reads the result back as 1048576 rows of 64.

  On the extended reals the two agree when the entries of `x` and of the adapter are real numbers, which the precondition
  says: the 64 products of each entry that meet a zero block vanish, and a real number times `(b + a)` with `a` real is the
  sum of the two products whatever `b` is (Proof/Linear.lean). Nothing is asked of the base weight: both programs compute
  it by the same operations, and the certificate carries it as one unopened function of the codes and the scales.

  The modules: Proof/Linear.lean (the mathematics), Proof/Layout.lean (the reshapes and the block-diagonal matrix at an
  entry), Proof/Body.lean (the kernel body`s product at an entry), Proof/Entry.lean (the two operands when the kernel
  starts), Proof/Blocks.lean (the result array from the 64 written blocks), Proof/KernelValue.lean (the kernel program`s
  run and result), Proof/RefRun.lean and Proof/RefValue.lean (the reference`s run and result), Proof/Finite.lean (the
  precondition read as `every entry is a real number`).
-/
import proofs.«115865_j10445360464556_2_alg».proof.Defs
import proofs.«115865_j10445360464556_2_alg».proof.Proof.Gen.Kernel
import proofs.«115865_j10445360464556_2_alg».proof.Proof.Gen.Kernel.Skeleton
import proofs.«115865_j10445360464556_2_alg».proof.Proof.Gen.Kernel.Launch
import proofs.«115865_j10445360464556_2_alg».proof.Proof.Gen.Kernel.Points
import proofs.«115865_j10445360464556_2_alg».proof.Proof.Gen.Kernel.Frame
import proofs.«115865_j10445360464556_2_alg».proof.Proof.Gen.KernelIdeal
import proofs.«115865_j10445360464556_2_alg».proof.Proof.Gen.KernelIdeal.Skeleton
import proofs.«115865_j10445360464556_2_alg».proof.Proof.Gen.KernelIdeal.Launch
import proofs.«115865_j10445360464556_2_alg».proof.Proof.Gen.KernelIdeal.Points
import proofs.«115865_j10445360464556_2_alg».proof.Proof.Gen.KernelIdeal.Frame
import proofs.«115865_j10445360464556_2_alg».proof.Proof.Gen.ReferenceIdeal
import proofs.«115865_j10445360464556_2_alg».proof.Proof.Gen.Pre_finite_inputs
import proofs.«115865_j10445360464556_2_alg».proof.Proof.KernelValue
import proofs.«115865_j10445360464556_2_alg».proof.Proof.RefValue
import proofs.«115865_j10445360464556_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program on the extended reals. -/
theorem frame_kernelIdeal : Cert.frame_KernelIdeal := fun m ρ _ => Cert.KernelIdeal.Gen.frame m ρ

/-- The reference`s frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- Both programs, from memories that agree on the arguments, end at `x · baseᵀ + x · adapterᵀ`: the kernel program because
    `x` and the adapter are real (the precondition), the reference term by term; and the base weight is the same function
    of the same codes and scales in both. -/
theorem algebraic : Cert.algebraic_KernelIdeal_ReferenceIdeal := by
  intro m ρ mr ρr hpre hagree
  have hfin := fun c : Dev Cert.KernelIdeal.nD => Cert.Finite.real_of_pre _ _ _ _ (hpre c)
  refine ⟨fun c => Cert.Linear.twoProducts (m ((c.tc : Thread Cert.KernelIdeal.nD Cert.KernelIdeal.τ).loc Cert.KernelIdeal.main_arg0))
      (Cert.KernelIdeal.Packed.baseWeight m c) (m ((c.tc : Thread Cert.KernelIdeal.nD Cert.KernelIdeal.τ).loc Cert.KernelIdeal.main_arg3)),
    Cert.KernelIdeal.Packed.run m ρ (fun c => (hfin c).1) (fun c => (hfin c).2), ?_⟩
  refine (θ_run Cert.ReferenceIdeal.defs _ _).mono (fun _ h c => ⟨(h c).1.trans ?_, (h c).2⟩)
    (Cert.ReferenceIdeal.RefValue.run mr ρr)
  rw [(hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
